-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128 .f32) (main_arg10 : FVec F S40x128 .f32) (main_arg11 : FVec F S40x128 .f32) (main_arg12 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S40x128 .f32 := Host.absf main_arg10
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40x128 .f32 := Host.absf main_arg11
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S40x128 .f32) (main_arg11 : FVec F S40x128 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : FVec F S1600000 .f32) (main_arg2 : IVec S1600000 32) (main_arg3 : IVec S1600000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S40x128 .f32) (main_arg11 : FVec F S40x128 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 85
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S40x128, .f32⟩
  | .hbm, ⟨11, _⟩ => ⟨S40x128, .f32⟩
  | .hbm, ⟨12, _⟩ => ⟨S40, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S128x40, .f32⟩
  | .hbm, ⟨82, _⟩ => ⟨S128x40, .f32⟩
  | .hbm, ⟨83, _⟩ => ⟨S1x40, .f32⟩
  | .hbm, ⟨84, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S1x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S40x128, .f32⟩
  | .hbm, ⟨11, _⟩ => ⟨S40x128, .f32⟩
  | .hbm, ⟨12, _⟩ => ⟨S40, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S128x40, .f32⟩
  | .hbm, ⟨96, _⟩ => ⟨S100000x40, .f32⟩
  | .hbm, ⟨97, _⟩ => ⟨S1x40, .f32⟩
  | .hbm, ⟨98, _⟩ => ⟨S100000x40, .f32⟩
  | .hbm, ⟨99, _⟩ => ⟨S100000x40, .f32⟩
  | .hbm, ⟨100, _⟩ => ⟨S128x40, .f32⟩
  | .hbm, ⟨101, _⟩ => ⟨S100000x40, .f32⟩
  | .hbm, ⟨102, _⟩ => ⟨S100000x40, .f32⟩
  | .hbm, ⟨103, _⟩ => ⟨S_, .f32⟩
  | .hbm, ⟨104, _⟩ => ⟨S100000x40, .f32⟩
  | .hbm, ⟨105, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call2_cst : Ref sig .tc := ⟨.hbm, 103, rfl⟩
abbrev main_call2_v0 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.NamedRun.lean ====
/-
  The idealized kernel's run with its result named.

  @main is six segments — three stretches of host operations, each followed by one launch — and the buffers'
  contents at each boundary are a fold from the launch memory (the generated `W0 … W6`). Every weakly fair execution
  terminates without a fault with every unscoped buffer at the last boundary's contents; read at the thirteen
  arguments this is the frame, and read at the result buffer it says the result ends at `W6` there. The run below
  is the frame's launch over the same segments with that one more buffer read back.
-/
import proofs.«133275_j20383914787326_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Named

end
-- ==== Proof.Body.lean ====
/-
  One layer's kernel body, read at one entry of its output block.

  Each of the three launches computes, on a block of 5000 rows,
      relu ((h · Ws + hn · Wn) + b)
  where `h`, `hn` are the block's rows of the features and of the mean-aggregated neighbour features (128
  columns), `Ws`, `Wn` the two (already transposed) weight matrices with `D` columns and `b` the bias as one row.
  The narrowing of the operands to bf16 is the identity on extended reals, and a matrix-unit product into a zero
  accumulator is the plain sum over the 128 contracted positions. So entry (p, q) of the block is
      max ((∑ₖ h[p,k]·Ws[k,q] + ∑ₖ hn[p,k]·Wn[k,q]) + b[0,q]) 0.
-/
import proofs.«133275_j20383914787326_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-! ## The positions a block's product reads

For entry (p, q) and contracted position k the product reads (p, k) on the left and (k, q) on the right; stated
coordinate by coordinate over any contraction index, then at the index the position `k` names. -/

theorem dot128_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot128_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot128_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot128_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's product with a [128,128] matrix into a zero accumulator, at entry (p, q): the sum over the 128 contracted positions. -/
theorem mm128 {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot128_lhs0 _ _
      | ⟨1, _⟩ => exact (dot128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot128_rhs0 _ _).trans hk
      | ⟨1, _⟩ => exact dot128_rhs1 _ _)
  rw [el, er]

theorem dot40_lhs0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
theorem dot40_lhs1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem dot40_rhs0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem dot40_rhs1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The same for the last layer's [128,40] matrices. -/
theorem mm40 {φ₁ φ₂ : FTy} (a : FVec Ideal S5000x128 φ₁) (w : FVec Ideal S128x40 φ₂) (p : Fin 5000) (q : Fin 40) :
    FloatOps.matmul dot_S5000x128_S128x40_S5000x40_1_0_0_1_n_n none a w (constant S5000x40 .f32 0x00000000#32) (ix2 p q)
      = ∑ k : Fin 128, a (ix2 p k) * w (ix2 k q) := by
  rw [Ideal.matmul_constant_zero_apply,
    ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact dot40_lhs0 _ _
      | ⟨1, _⟩ => exact (dot40_lhs1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (dot40_rhs0 _ _).trans hk
      | ⟨1, _⟩ => exact dot40_rhs1 _ _)
  rw [el, er]

/-! ## The three bodies at an entry -/

/-- Entry (p, q) of the first layer's output block. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) (Ideal.ofBits .f32 0x00000000#32) := by
  unfold k0_pay1
  simp only [shapeCast_self]
  refine congrArg₂ max (congrArg₂ (· + ·) (congrArg₂ (· + ·) ?_ ?_) ?_) rfl
  · exact mm128 (φ₁ := .bf16) (φ₂ := .bf16) _ _ p q
  · exact mm128 (φ₁ := .bf16) (φ₂ := .bf16) _ _ p q
  · exact broadcastTo_1b_ab_apply _ _ p q

/-- Entry (p, q) of the second layer's output block. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) (Ideal.ofBits .f32 0x00000000#32) := by
  unfold k1_pay1
  simp only [shapeCast_self]
  refine congrArg₂ max (congrArg₂ (· + ·) (congrArg₂ (· + ·) ?_ ?_) ?_) rfl
  · exact mm128 (φ₁ := .bf16) (φ₂ := .bf16) _ _ p q
  · exact mm128 (φ₁ := .bf16) (φ₂ := .bf16) _ _ p q
  · exact broadcastTo_1b_ab_apply _ _ p q

/-- Entry (p, q) of the last layer's output block (40 columns). -/
theorem pay2_apply (x0 x1 : Vec Ideal S5000x128 .f32) (x2 x3 : Vec Ideal S128x40 .f32) (x4 : Vec Ideal S1x40 .f32)
    (p : Fin 5000) (q : Fin 40) :
    k2_pay1 (F := Ideal) x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) (Ideal.ofBits .f32 0x00000000#32) := by
  unfold k2_pay1
  simp only [shapeCast_self]
  refine congrArg₂ max (congrArg₂ (· + ·) (congrArg₂ (· + ·) ?_ ?_) ?_) rfl
  · exact mm40 (φ₁ := .bf16) (φ₂ := .bf16) _ _ p q
  · exact mm40 (φ₁ := .bf16) (φ₂ := .bf16) _ _ p q
  · exact broadcastTo_1b_ab_apply _ _ p q

end Cert.KernelIdeal.Body

end
-- ==== Proof.LayerFn.lean ====
/-
  One layer as a function of whole arrays, entry by entry: for features `h` and aggregated neighbour features
  `hn` (100000 rows of 128), weight matrices `ws`, `wn` (128 rows of D, already transposed), and the bias as one
  row `b`,
      out[r, c] = max ((∑ₖ h[r,k]·ws[k,c] + ∑ₖ hn[r,k]·wn[k,c]) + b[0,c]) 0.
  This is the order the kernel adds in (the two products first, the bias last).
-/
import proofs.«133275_j20383914787326_1_alg».proof.KernelIdeal
import Idealize.ShloMosaic.Lib.ValueIdx
import Idealize.ShloMosaic.PureOps.Ideal

noncomputable section

open Idealize.ShloMosaic Idealize.ShloMosaic.ValueIdx

namespace Cert.KernelIdeal.Layer

open Cert.KernelIdeal

/-- A layer with 128 output columns (the first two). -/
def out128 (h hn : S100000x128.Idx → Elt Ideal .f32) (ws wn : S128x128.Idx → Elt Ideal .f32) (b : S1x128.Idx → Elt Ideal .f32) :
    S100000x128.Idx → Elt Ideal .f32 := fun i =>
  max (((∑ k : Fin 128, h (ix2 (i 0) k) * ws (ix2 k (i 1))) + (∑ k : Fin 128, hn (ix2 (i 0) k) * wn (ix2 k (i 1))))
    + b (ix2 (0 : Fin 1) (i 1))) (Ideal.ofBits .f32 0x00000000#32)

/-- The last layer, with 40 output columns. -/
def out40 (h hn : S100000x128.Idx → Elt Ideal .f32) (ws wn : S128x40.Idx → Elt Ideal .f32) (b : S1x40.Idx → Elt Ideal .f32) :
    S100000x40.Idx → Elt Ideal .f32 := fun i =>
  max (((∑ k : Fin 128, h (ix2 (i 0) k) * ws (ix2 k (i 1))) + (∑ k : Fin 128, hn (ix2 (i 0) k) * wn (ix2 k (i 1))))
    + b (ix2 (0 : Fin 1) (i 1))) (Ideal.ofBits .f32 0x00000000#32)

end Cert.KernelIdeal.Layer

end
-- ==== Proof.Region0.lean ====
/-
  The first launch: what its result array holds when it returns, as one function of the five arrays it reads.

  The grid has 20 points; point t reads rows 5000·t … 5000·t + 4999 of the features and of the aggregated
  neighbour features, the whole of both weight matrices and of the bias row, and writes rows 5000·t … of the
  result. Entry (r, c) of the result therefore depends on row r of the two feature arrays and column c of the
  weights and the bias only — the body's arithmetic at an entry (Body.lean) read through the blocks — and the 20
  row blocks cover the array.
-/
import proofs.«133275_j20383914787326_1_alg».proof.Proof.Gen.KernelIdeal.Frame
import proofs.«133275_j20383914787326_1_alg».proof.Proof.Body
import proofs.«133275_j20383914787326_1_alg».proof.Proof.LayerFn
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, block column 0; the
    weights and the bias are always their one block. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block's arithmetic at entry (p, q) is the layer's function at the array entry i the block entry sits at, as
    soon as the blocks' row p and column q are the arrays' row and column of i. -/
theorem blk_eq (x0 x1 : Vec Ideal S5000x128 .f32) (x2 x3 : Vec Ideal S128x128 .f32) (x4 : Vec Ideal S1x128 .f32)
    (h hn : S100000x128.Idx → Elt Ideal .f32) (ws wn : S128x128.Idx → Elt Ideal .f32) (b : S1x128.Idx → Elt Ideal .f32)
    (p : Fin 5000) (q : Fin 128) (i : S100000x128.Idx)
    (e0 : ∀ k : Fin 128, x0 (ix2 p k) = h (ix2 (i 0) k)) (e1 : ∀ k : Fin 128, x1 (ix2 p k) = hn (ix2 (i 0) k))
    (e2 : ∀ k : Fin 128, x2 (ix2 k q) = ws (ix2 k (i 1))) (e3 : ∀ k : Fin 128, x3 (ix2 k q) = wn (ix2 k (i 1)))
    (e4 : x4 (ix2 (0 : Fin 1) q) = b (ix2 (0 : Fin 1) (i 1))) :
    k0_pay1 (F := Ideal) x0 x1 x2 x3 x4 (ix2 p q) = out128 h hn ws wn b i := by
  rw [Body.pay0_apply]
  unfold out128
  simp only [e0, e1, e2, e3, e4]

/-- WHAT POINT t WRITES BACK is block t of the layer's function of the arrays as the launch finds them. -/
theorem flushed_eq (c : Dev nD) (t : Fin cfg0.N) :
    (dat0 V c).flushed 5 t = ((cfg0.win 5).blk t).view.read (Elt Ideal)
      (out128 (V c main_arg0) (V c main_v20) (V c main_v21) (V c main_v22) (V c main_v23)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨o0, o1, a0, a1, b0, b1, c0, c1, d0, d1, f0, f1⟩ := idx_facts t
  funext j
  have hp : (j 0).val < 5000 := Nat.lt_of_lt_of_le (j 0).isLt ((cfg0.win 5).xsize_le (grid0.coords t) 0)
  have hq : (j 1).val < 128 := Nat.lt_of_lt_of_le (j 1).isLt ((cfg0.win 5).xsize_le (grid0.coords t) 1)
  have hx : (cfg0.win 5).xinj (grid0.coords t) j = ix2 (⟨(j 0).val, hp⟩ : Fin 5000) (⟨(j 1).val, hq⟩ : Fin 128) :=
    funext fun a => by
      match a with
      | ⟨0, _⟩ => rfl
      | ⟨1, _⟩ => rfl
  refine (congrArg (k0_pay1 (F := Ideal) (iblk0 V c 0 t) (iblk0 V c 1 t) (iblk0 V c 2 t) (iblk0 V c 3 t) (iblk0 V c 4 t)) hx).trans ?_
  refine blk_eq (iblk0 V c 0 t) (iblk0 V c 1 t) (iblk0 V c 2 t) (iblk0 V c 3 t) (iblk0 V c 4 t)
    (V c main_arg0) (V c main_v20) (V c main_v21) (V c main_v22) (V c main_v23) ⟨(j 0).val, hp⟩ ⟨(j 1).val, hq⟩ (((cfg0.win 5).blk t).view.emb j)
    (fun k => ?_) (fun k => ?_) (fun k => ?_) (fun k => ?_) ?_
  · show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_5.index t (0 : Fin 2) * 5000 + 1 * (j 0).val; rw [a0, o0]
    | ⟨1, _⟩ => show win0_0.index t (1 : Fin 2) * 128 + 1 * k.val = k.val; rw [a1]; omega
  · show V c main_v20 (((cfg0.win 1).blk t).view.emb (ix2 (⟨(j 0).val, hp⟩ : Fin 5000) k)) = _
    refine congrArg (V c main_v20) (funext fun a => Fin.ext ?_)
    match a with
    | ⟨0, _⟩ => show win0_1.index t (0 : Fin 2) * 5000 + 1 * (j 0).val = win0_5.index t (0 : Fin 2) * 5000 + 1 * (j 0).val; rw [b0, o0]
    | ⟨1, _⟩ => show win0_1.index t (1 : Fin 2) * 128 + 1 * k.val = k.val; rw [b1]; omega
  · show V c main_v21 (((cfg0.win 2).blk t).view.emb (ix2 k (⟨(j 1).val, hq⟩ : Fin 128))) = _
    refine congrArg (V c main_v21) (funext fun a => Fin.ext ?_)
    match a with
    | ⟨0, _⟩ => show win0_2.index t (0 : Fin 2) * 128 + 1 * k.val = k.val; rw [c0]; omega
    | ⟨1, _⟩ => show win0_2.index t (1 : Fin 2) * 128 + 1 * (j 1).val = win0_5.index t (1 : Fin 2) * 128 + 1 * (j 1).val; rw [c1, o1]
  · show V c main_v22 (((cfg0.win 3).blk t).view.emb (ix2 k (⟨(j 1).val, hq⟩ : Fin 128))) = _
    refine congrArg (V c main_v22) (funext fun a => Fin.ext ?_)
    match a with
    | ⟨0, _⟩ => show win0_3.index t (0 : Fin 2) * 128 + 1 * k.val = k.val; rw [d0]; omega
    | ⟨1, _⟩ => show win0_3.index t (1 : Fin 2) * 128 + 1 * (j 1).val = win0_5.index t (1 : Fin 2) * 128 + 1 * (j 1).val; rw [d1, o1]
  · show V c main_v23 (((cfg0.win 4).blk t).view.emb (ix2 (0 : Fin 1) (⟨(j 1).val, hq⟩ : Fin 128))) = _
    refine congrArg (V c main_v23) (funext fun a => Fin.ext ?_)
    match a with
    | ⟨0, _⟩ => show win0_4.index t (0 : Fin 2) * 1 + 1 * 0 = 0; rw [f0]
    | ⟨1, _⟩ => show win0_4.index t (1 : Fin 2) * 128 + 1 * (j 1).val = win0_5.index t (1 : Fin 2) * 128 + 1 * (j 1).val; rw [f1, o1]

/-- An entry of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every entry of the result is written back: row r by point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨o0, o1, -⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [o0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [o1]; omega

/-- THE RESULT ARRAY when the launch returns: the layer's function of the arrays it was entered with. -/
theorem final (c : Dev nD) : (dat0 V c).arrAt 5 cfg0.N
    = out128 (V c main_arg0) (V c main_v20) (V c main_v21) (V c main_v22) (V c main_v23) :=
  (dat0 V c).arrAt_eq_of_cover 5 _ (fun t _ => flushed_eq V c t) cover

end Cert.KernelIdeal.Region0

end
-- ==== Proof.LayerEq.lean ====
/-
  One layer of the reference is the kernel's layer function of the same arrays.

  The reference adds the bias between the two matrix products, `(h·Ws + b) + hn·Wn`; the kernel adds it last,
  `(h·Ws + hn·Wn) + b`. Addition on the extended reals is commutative and associative (with +∞ + −∞ = −∞ it is still a
  commutative monoid), so the two are equal entry by entry, whatever the entries are — no finiteness is used. Each
  lemma reads the reference's stages of one layer at an entry (the generated read-at-an-index lemmas: both products as
  sums over the 128 contracted positions, the bias through its two broadcasts, relu as `max · 0`) and reorders the sum.
  The weights enter both sides already transposed, the aggregated neighbour features as the same array: neither is
  opened.
-/
import proofs.«133275_j20383914787326_1_alg».proof.Proof.Gen.ReferenceIdeal.Read
import proofs.«133275_j20383914787326_1_alg».proof.Proof.LayerFn

noncomputable section

open Idealize.ShloMosaic Idealize.ShloMosaic.ValueIdx

namespace Cert.Bridge

open Cert.ReferenceIdeal Cert.ReferenceIdeal.Read Cert.KernelIdeal.Layer

/-! ## The generated index functions are the coordinates they spell -/

theorem lidx_v22_eq (i : S100000x128.Idx) (k : Fin 128) : lidx_main_v22 i k = ix2 (i 0) k :=
  funext fun a => by
    match a with
    | ⟨0, _⟩ => rfl
    | ⟨1, _⟩ => rfl
theorem ridx_v22_eq (i : S100000x128.Idx) (k : Fin 128) : ridx_main_v22 i k = ix2 k (i 1) :=
  funext fun a => by
    match a with
    | ⟨0, _⟩ => rfl
    | ⟨1, _⟩ => rfl
theorem lidx_v27_eq (i : S100000x128.Idx) (k : Fin 128) : lidx_main_v27 i k = ix2 (i 0) k :=
  funext fun a => by
    match a with
    | ⟨0, _⟩ => rfl
    | ⟨1, _⟩ => rfl
theorem ridx_v27_eq (i : S100000x128.Idx) (k : Fin 128) : ridx_main_v27 i k = ix2 k (i 1) :=
  funext fun a => by
    match a with
    | ⟨0, _⟩ => rfl
    | ⟨1, _⟩ => rfl
theorem lidx_v44_eq (i : S100000x128.Idx) (k : Fin 128) : lidx_main_v44 i k = ix2 (i 0) k :=
  funext fun a => by
    match a with
    | ⟨0, _⟩ => rfl
    | ⟨1, _⟩ => rfl
theorem ridx_v44_eq (i : S100000x128.Idx) (k : Fin 128) : ridx_main_v44 i k = ix2 k (i 1) :=
  funext fun a => by
    match a with
    | ⟨0, _⟩ => rfl
    | ⟨1, _⟩ => rfl
theorem lidx_v49_eq (i : S100000x128.Idx) (k : Fin 128) : lidx_main_v49 i k = ix2 (i 0) k :=
  funext fun a => by
    match a with
    | ⟨0, _⟩ => rfl
    | ⟨1, _⟩ => rfl
theorem ridx_v49_eq (i : S100000x128.Idx) (k : Fin 128) : ridx_main_v49 i k = ix2 k (i 1) :=
  funext fun a => by
    match a with
    | ⟨0, _⟩ => rfl
    | ⟨1, _⟩ => rfl
theorem lidx_v66_eq (i : S100000x40.Idx) (k : Fin 128) : lidx_main_v66 i k = ix2 (i 0) k :=
  funext fun a => by
    match a with
    | ⟨0, _⟩ => rfl
    | ⟨1, _⟩ => rfl
theorem ridx_v66_eq (i : S100000x40.Idx) (k : Fin 128) : ridx_main_v66 i k = ix2 k (i 1) :=
  funext fun a => by
    match a with
    | ⟨0, _⟩ => rfl
    | ⟨1, _⟩ => rfl
theorem lidx_v71_eq (i : S100000x40.Idx) (k : Fin 128) : lidx_main_v71 i k = ix2 (i 0) k :=
  funext fun a => by
    match a with
    | ⟨0, _⟩ => rfl
    | ⟨1, _⟩ => rfl
theorem ridx_v71_eq (i : S100000x40.Idx) (k : Fin 128) : ridx_main_v71 i k = ix2 k (i 1) :=
  funext fun a => by
    match a with
    | ⟨0, _⟩ => rfl
    | ⟨1, _⟩ => rfl

theorem idx_v23_v24_eq (i : S100000x128.Idx) : idx_main_v23 (idx_main_v24 i) = ix1 (i 1) :=
  funext fun a => by
    match a with
    | ⟨0, _⟩ => rfl
theorem idx_v45_v46_eq (i : S100000x128.Idx) : idx_main_v45 (idx_main_v46 i) = ix1 (i 1) :=
  funext fun a => by
    match a with
    | ⟨0, _⟩ => rfl
theorem idx_v67_v68_eq (i : S100000x40.Idx) : idx_main_v67 (idx_main_v68 i) = ix1 (i 1) :=
  funext fun a => by
    match a with
    | ⟨0, _⟩ => rfl

/-! ## The three layers -/

/-- The first layer: from the input features and their aggregate. -/
theorem layer0 (x0 : (⟨S100000x128, .f32⟩ : BufTy).Contents (Elt Ideal)) (x2 x3 : (⟨S1600000, .i32⟩ : BufTy).Contents (Elt Ideal)) (x4 x5 : (⟨S128x128, .f32⟩ : BufTy).Contents (Elt Ideal)) (x6 : (⟨S128, .f32⟩ : BufTy).Contents (Elt Ideal))
    (b2d : Cert.KernelIdeal.S1x128.Idx → Elt Ideal .f32) (hb : ∀ q : Fin 128, b2d (ix2 (0 : Fin 1) q) = x6 (ix1 q)) :
    out128 x0 (val_main_v20 (F := Ideal) x0 x2 x3) (val_main_v21 (F := Ideal) x4) (val_main_v26 (F := Ideal) x5) b2d
      = val_main_v29 (F := Ideal) x0 x2 x3 x4 x5 x6 := by
  funext i
  rw [val_main_v29_apply, val_main_v28_apply, val_main_v25_apply, val_main_v22_apply, val_main_v24_apply, val_main_v23_apply, val_main_v27_apply, val_main_call0_v0_apply, val_main_call0_cst_apply]
  unfold out128
  have hbi : b2d (ix2 (0 : Fin 1) (i 1)) = x6 (ix1 (i 1)) := hb (i 1)
  rw [hbi]
  simp only [lidx_v22_eq, ridx_v22_eq, lidx_v27_eq, ridx_v27_eq, idx_v23_v24_eq]
  exact congrArg (fun s => max s _) (add_right_comm _ _ _)

/-- The second layer: from the first layer's result and its aggregate. -/
theorem layer1 (x0 : (⟨S100000x128, .f32⟩ : BufTy).Contents (Elt Ideal)) (x2 x3 : (⟨S1600000, .i32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (b2d : Cert.KernelIdeal.S1x128.Idx → Elt Ideal .f32) (hb : ∀ q : Fin 128, b2d (ix2 (0 : Fin 1) q) = x9 (ix1 q)) :
    out128 (val_main_v29 (F := Ideal) x0 x2 x3 x4 x5 x6) (val_main_v42 (F := Ideal) x0 x2 x3 x4 x5 x6) (val_main_v43 (F := Ideal) x7) (val_main_v48 (F := Ideal) x8) b2d
      = val_main_v51 (F := Ideal) x0 x2 x3 x4 x5 x6 x7 x8 x9 := by
  funext i
  rw [val_main_v51_apply, val_main_v50_apply, val_main_v47_apply, val_main_v44_apply, val_main_v46_apply, val_main_v45_apply, val_main_v49_apply, val_main_call1_v0_apply, val_main_call1_cst_apply]
  unfold out128
  have hbi : b2d (ix2 (0 : Fin 1) (i 1)) = x9 (ix1 (i 1)) := hb (i 1)
  rw [hbi]
  simp only [lidx_v44_eq, ridx_v44_eq, lidx_v49_eq, ridx_v49_eq, idx_v45_v46_eq]
  exact congrArg (fun s => max s _) (add_right_comm _ _ _)

/-- The last layer (40 columns): from the second layer's result and its aggregate. -/
theorem layer2 (x0 : (⟨S100000x128, .f32⟩ : BufTy).Contents (Elt Ideal)) (x2 x3 : (⟨S1600000, .i32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 x11 : (⟨S40x128, .f32⟩ : BufTy).Contents (Elt Ideal)) (x12 : (⟨S40, .f32⟩ : BufTy).Contents (Elt Ideal))
    (b2d : Cert.KernelIdeal.S1x40.Idx → Elt Ideal .f32) (hb : ∀ q : Fin 40, b2d (ix2 (0 : Fin 1) q) = x12 (ix1 q)) :
    out40 (val_main_v51 (F := Ideal) x0 x2 x3 x4 x5 x6 x7 x8 x9) (val_main_v64 (F := Ideal) x0 x2 x3 x4 x5 x6 x7 x8 x9) (val_main_v65 (F := Ideal) x10) (val_main_v70 (F := Ideal) x11) b2d
      = val_main_v73 (F := Ideal) x0 x2 x3 x4 x5 x6 x7 x8 x9 x10 x11 x12 := by
  funext i
  rw [val_main_v73_apply, val_main_v72_apply, val_main_v69_apply, val_main_v66_apply, val_main_v68_apply, val_main_v67_apply, val_main_v71_apply, val_main_call2_v0_apply, val_main_call2_cst_apply]
  unfold out40
  have hbi : b2d (ix2 (0 : Fin 1) (i 1)) = x12 (ix1 (i 1)) := hb (i 1)
  rw [hbi]
  simp only [lidx_v66_eq, ridx_v66_eq, lidx_v71_eq, ridx_v71_eq, idx_v67_v68_eq]
  exact congrArg (fun s => max s _) (add_right_comm _ _ _)

end Cert.Bridge

end
-- ==== Proof.Stretch0.lean ====
/-
  The first stretch of host operations and the first launch, read back.

  Before the first launch @main computes, from the edge lists alone, the reciprocal in-degrees and the (wrapped)
  source indices; gathers the input features along the edges, sums them into their destination rows and scales each
  row by its reciprocal in-degree (the aggregated neighbour features); transposes the two weight matrices; and
  reshapes the bias vector to one row. These are the very operations the reference performs, so each buffer the launch
  reads holds the reference's own stage of the same arguments — the gather and the scattered sum are never opened. The
  launch then leaves the first layer in its result buffer and nothing else changed.
-/
import proofs.«133275_j20383914787326_1_alg».proof.Proof.Gen.KernelIdeal.Frame
import proofs.«133275_j20383914787326_1_alg».proof.Proof.Gen.ReferenceIdeal.Read
import proofs.«133275_j20383914787326_1_alg».proof.Proof.Region0
import proofs.«133275_j20383914787326_1_alg».proof.Proof.LayerEq
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable (m : (ℓ : Loc nD τ sig) → Buf (Elt Ideal) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl

theorem W1_arg12 (c : Dev nD) : W1 m ρ c (Proc.devRef .tc main_arg12) = m ((c : Thread nD τ).loc main_arg12) := by
  show StableHlo.after hostOps0 (W0 m ρ c) (Proc.devRef .tc main_arg12) = _
  after_results_simp <;> rfl

/-- The reciprocal in-degrees, as the reference computes them. -/
theorem W1_v7 (c : Dev nD) : W1 m ρ c (Proc.devRef .tc main_v7) = Cert.ReferenceIdeal.Read.val_main_v7 (F := Ideal) (m ((c : Thread nD τ).loc main_arg3)) := by
  show StableHlo.after hostOps0 (W0 m ρ c) (Proc.devRef .tc main_v7) = _
  after_results_simp <;> rfl

/-- The aggregated neighbour features of the input, as the reference computes them. -/
theorem W1_v20 (c : Dev nD) : W1 m ρ c (Proc.devRef .tc main_v20)
    = Cert.ReferenceIdeal.Read.val_main_v20 (F := Ideal) (m ((c : Thread nD τ).loc main_arg0)) (m ((c : Thread nD τ).loc main_arg2)) (m ((c : Thread nD τ).loc main_arg3)) := by
  show StableHlo.after hostOps0 (W0 m ρ c) (Proc.devRef .tc main_v20) = _
  after_results_simp <;> rfl

/-- The two weight matrices, transposed. -/
theorem W1_v21 (c : Dev nD) : W1 m ρ c (Proc.devRef .tc main_v21) = Cert.ReferenceIdeal.Read.val_main_v21 (F := Ideal) (m ((c : Thread nD τ).loc main_arg4)) := by
  show StableHlo.after hostOps0 (W0 m ρ c) (Proc.devRef .tc main_v21) = _
  after_results_simp <;> rfl
theorem W1_v22 (c : Dev nD) : W1 m ρ c (Proc.devRef .tc main_v22) = Cert.ReferenceIdeal.Read.val_main_v26 (F := Ideal) (m ((c : Thread nD τ).loc main_arg5)) := by
  show StableHlo.after hostOps0 (W0 m ρ c) (Proc.devRef .tc main_v22) = _
  after_results_simp <;> rfl

/-- A vector of 128 reshaped to one row reads, at column q, the vector's entry q. -/
theorem row128 {α : Type} (x : S128.Idx → α) (h : S128.ShapeCasts S1x128) (q : Fin 128) :
    shapeCast S1x128 x h (ix2 (0 : Fin 1) q) = x (ix1 q) :=
  (shapeCast_addUnit_apply ![128] x h (ix2 (0 : Fin 1) q)).trans (congrArg x (funext fun a => by
    match a with
    | ⟨0, _⟩ => rfl))
/-- The same for 40. -/
theorem row40 {α : Type} (x : S40.Idx → α) (h : S40.ShapeCasts S1x40) (q : Fin 40) :
    shapeCast S1x40 x h (ix2 (0 : Fin 1) q) = x (ix1 q) :=
  (shapeCast_addUnit_apply ![40] x h (ix2 (0 : Fin 1) q)).trans (congrArg x (funext fun a => by
    match a with
    | ⟨0, _⟩ => rfl))

/-- The bias as one row. -/
theorem W1_v23 (c : Dev nD) : W1 m ρ c (Proc.devRef .tc main_v23)
    = shapeCast S1x128 (m ((c : Thread nD τ).loc main_arg6)) shapeCasts_S128_S1x128 := by
  show StableHlo.after hostOps0 (W0 m ρ c) (Proc.devRef .tc main_v23) = _
  after_results_simp <;> rfl

/-! ## After the first launch -/

/-- The first launch's result: the reference's first layer. -/
theorem W2_v24 (c : Dev nD) : W2 m ρ c (Proc.devRef .tc main_v24) = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 5).trans ((Region0.final (V1 m ρ) c).trans ?_)
  have e0 : V1 m ρ c main_arg0 = (m ((c : Thread nD τ).loc main_arg0)) := W1_arg0 m ρ c
  have e1 : V1 m ρ c main_v20 = Cert.ReferenceIdeal.Read.val_main_v20 (F := Ideal) (m ((c : Thread nD τ).loc main_arg0)) (m ((c : Thread nD τ).loc main_arg2)) (m ((c : Thread nD τ).loc main_arg3)) := W1_v20 m ρ c
  have e2 : V1 m ρ c main_v21 = Cert.ReferenceIdeal.Read.val_main_v21 (F := Ideal) (m ((c : Thread nD τ).loc main_arg4)) := W1_v21 m ρ c
  have e3 : V1 m ρ c main_v22 = Cert.ReferenceIdeal.Read.val_main_v26 (F := Ideal) (m ((c : Thread nD τ).loc main_arg5)) := W1_v22 m ρ c
  have e4 : V1 m ρ c main_v23 = shapeCast S1x128 (m ((c : Thread nD τ).loc main_arg6)) shapeCasts_S128_S1x128 := W1_v23 m ρ c
  rw [e0, e1, e2, e3, e4]
  exact Cert.Bridge.layer0 _ _ _ _ _ _ _ (fun q => row128 _ _ q)

theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_v7 (c : Dev nD) : W2 m ρ c (Proc.devRef .tc main_v7) = Cert.ReferenceIdeal.Read.val_main_v7 (F := Ideal) (m ((c : Thread nD τ).loc main_arg3)) :=
  (W2_of_ne m ρ c main_v7 (by decide)).trans (W1_v7 m ρ c)

end Cert.KernelIdeal.Host

end
-- ==== Proof.Region1.lean ====
/-
  The second launch: what its result array holds when it returns, as one function of the five arrays it reads.

  The grid has 20 points; point t reads rows 5000·t … 5000·t + 4999 of the features and of the aggregated
  neighbour features, the whole of both weight matrices and of the bias row, and writes rows 5000·t … of the
  result. Entry (r, c) of the result therefore depends on row r of the two feature arrays and column c of the
  weights and the bias only — the body's arithmetic at an entry (Body.lean) read through the blocks — and the 20
  row blocks cover the array.
-/
import proofs.«133275_j20383914787326_1_alg».proof.Proof.Gen.KernelIdeal.Frame
import proofs.«133275_j20383914787326_1_alg».proof.Proof.Body
import proofs.«133275_j20383914787326_1_alg».proof.Proof.LayerFn
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, block column 0; the
    weights and the bias are always their one block. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The block's arithmetic at entry (p, q) is the layer's function at the array entry i the block entry sits at, as
    soon as the blocks' row p and column q are the arrays' row and column of i. -/
theorem blk_eq (x0 x1 : Vec Ideal S5000x128 .f32) (x2 x3 : Vec Ideal S128x128 .f32) (x4 : Vec Ideal S1x128 .f32)
    (h hn : S100000x128.Idx → Elt Ideal .f32) (ws wn : S128x128.Idx → Elt Ideal .f32) (b : S1x128.Idx → Elt Ideal .f32)
    (p : Fin 5000) (q : Fin 128) (i : S100000x128.Idx)
    (e0 : ∀ k : Fin 128, x0 (ix2 p k) = h (ix2 (i 0) k)) (e1 : ∀ k : Fin 128, x1 (ix2 p k) = hn (ix2 (i 0) k))
    (e2 : ∀ k : Fin 128, x2 (ix2 k q) = ws (ix2 k (i 1))) (e3 : ∀ k : Fin 128, x3 (ix2 k q) = wn (ix2 k (i 1)))
    (e4 : x4 (ix2 (0 : Fin 1) q) = b (ix2 (0 : Fin 1) (i 1))) :
    k1_pay1 (F := Ideal) x0 x1 x2 x3 x4 (ix2 p q) = out128 h hn ws wn b i := by
  rw [Body.pay1_apply]
  unfold out128
  simp only [e0, e1, e2, e3, e4]

/-- WHAT POINT t WRITES BACK is block t of the layer's function of the arrays as the launch finds them. -/
theorem flushed_eq (c : Dev nD) (t : Fin cfg1.N) :
    (dat1 V c).flushed 5 t = ((cfg1.win 5).blk t).view.read (Elt Ideal)
      (out128 (V c main_v24) (V c main_v37) (V c main_v38) (V c main_v39) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨o0, o1, a0, a1, b0, b1, c0, c1, d0, d1, f0, f1⟩ := idx_facts t
  funext j
  have hp : (j 0).val < 5000 := Nat.lt_of_lt_of_le (j 0).isLt ((cfg1.win 5).xsize_le (grid1.coords t) 0)
  have hq : (j 1).val < 128 := Nat.lt_of_lt_of_le (j 1).isLt ((cfg1.win 5).xsize_le (grid1.coords t) 1)
  have hx : (cfg1.win 5).xinj (grid1.coords t) j = ix2 (⟨(j 0).val, hp⟩ : Fin 5000) (⟨(j 1).val, hq⟩ : Fin 128) :=
    funext fun a => by
      match a with
      | ⟨0, _⟩ => rfl
      | ⟨1, _⟩ => rfl
  refine (congrArg (k1_pay1 (F := Ideal) (iblk1 V c 0 t) (iblk1 V c 1 t) (iblk1 V c 2 t) (iblk1 V c 3 t) (iblk1 V c 4 t)) hx).trans ?_
  refine blk_eq (iblk1 V c 0 t) (iblk1 V c 1 t) (iblk1 V c 2 t) (iblk1 V c 3 t) (iblk1 V c 4 t)
    (V c main_v24) (V c main_v37) (V c main_v38) (V c main_v39) (V c main_v40) ⟨(j 0).val, hp⟩ ⟨(j 1).val, hq⟩ (((cfg1.win 5).blk t).view.emb j)
    (fun k => ?_) (fun k => ?_) (fun k => ?_) (fun k => ?_) ?_
  · show V c main_v24 (((cfg1.win 0).blk t).view.emb (ix2 (⟨(j 0).val, hp⟩ : Fin 5000) k)) = _
    refine congrArg (V c main_v24) (funext fun a => Fin.ext ?_)
    match a with
    | ⟨0, _⟩ => show win1_0.index t (0 : Fin 2) * 5000 + 1 * (j 0).val = win1_5.index t (0 : Fin 2) * 5000 + 1 * (j 0).val; rw [a0, o0]
    | ⟨1, _⟩ => show win1_0.index t (1 : Fin 2) * 128 + 1 * k.val = k.val; rw [a1]; omega
  · show V c main_v37 (((cfg1.win 1).blk t).view.emb (ix2 (⟨(j 0).val, hp⟩ : Fin 5000) k)) = _
    refine congrArg (V c main_v37) (funext fun a => Fin.ext ?_)
    match a with
    | ⟨0, _⟩ => show win1_1.index t (0 : Fin 2) * 5000 + 1 * (j 0).val = win1_5.index t (0 : Fin 2) * 5000 + 1 * (j 0).val; rw [b0, o0]
    | ⟨1, _⟩ => show win1_1.index t (1 : Fin 2) * 128 + 1 * k.val = k.val; rw [b1]; omega
  · show V c main_v38 (((cfg1.win 2).blk t).view.emb (ix2 k (⟨(j 1).val, hq⟩ : Fin 128))) = _
    refine congrArg (V c main_v38) (funext fun a => Fin.ext ?_)
    match a with
    | ⟨0, _⟩ => show win1_2.index t (0 : Fin 2) * 128 + 1 * k.val = k.val; rw [c0]; omega
    | ⟨1, _⟩ => show win1_2.index t (1 : Fin 2) * 128 + 1 * (j 1).val = win1_5.index t (1 : Fin 2) * 128 + 1 * (j 1).val; rw [c1, o1]
  · show V c main_v39 (((cfg1.win 3).blk t).view.emb (ix2 k (⟨(j 1).val, hq⟩ : Fin 128))) = _
    refine congrArg (V c main_v39) (funext fun a => Fin.ext ?_)
    match a with
    | ⟨0, _⟩ => show win1_3.index t (0 : Fin 2) * 128 + 1 * k.val = k.val; rw [d0]; omega
    | ⟨1, _⟩ => show win1_3.index t (1 : Fin 2) * 128 + 1 * (j 1).val = win1_5.index t (1 : Fin 2) * 128 + 1 * (j 1).val; rw [d1, o1]
  · show V c main_v40 (((cfg1.win 4).blk t).view.emb (ix2 (0 : Fin 1) (⟨(j 1).val, hq⟩ : Fin 128))) = _
    refine congrArg (V c main_v40) (funext fun a => Fin.ext ?_)
    match a with
    | ⟨0, _⟩ => show win1_4.index t (0 : Fin 2) * 1 + 1 * 0 = 0; rw [f0]
    | ⟨1, _⟩ => show win1_4.index t (1 : Fin 2) * 128 + 1 * (j 1).val = win1_5.index t (1 : Fin 2) * 128 + 1 * (j 1).val; rw [f1, o1]

/-- An entry of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Every entry of the result is written back: row r by point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨o0, o1, -⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [o0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [o1]; omega

/-- THE RESULT ARRAY when the launch returns: the layer's function of the arrays it was entered with. -/
theorem final (c : Dev nD) : (dat1 V c).arrAt 5 cfg1.N
    = out128 (V c main_v24) (V c main_v37) (V c main_v38) (V c main_v39) (V c main_v40) :=
  (dat1 V c).arrAt_eq_of_cover 5 _ (fun t _ => flushed_eq V c t) cover

end Cert.KernelIdeal.Region1

end
-- ==== Proof.Stretch1.lean ====
/-
  The second stretch of host operations and the second launch, read back.

  Between the first two launches @main repeats the aggregation on the first layer's result (the same wrapped source
  indices, gather, scattered sum and scaling by the reciprocal in-degrees computed once at the start), transposes the
  second layer's weights and reshapes its bias. With the first layer already identified as the reference's, every buffer
  the second launch reads is again the reference's own stage, and the launch leaves the reference's second layer.
-/
import proofs.«133275_j20383914787326_1_alg».proof.Proof.Stretch0
import proofs.«133275_j20383914787326_1_alg».proof.Proof.Region1
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable (m : (ℓ : Loc nD τ sig) → Buf (Elt Ideal) ℓ) (ρ : Dev nD → PrngReg)

/-! ## After the second stretch -/

theorem W3_v24 (c : Dev nD) : W3 m ρ c (Proc.devRef .tc main_v24) = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v24) = _
  after_results_simp
  exact W2_v24 m ρ c

/-- The aggregated neighbour features of the first layer. -/
theorem W3_v37 (c : Dev nD) : W3 m ρ c (Proc.devRef .tc main_v37) = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v37) = _
  after_results_simp
  rw [W2_arg3 m ρ c, W2_arg2 m ρ c, W2_v24 m ρ c, W2_v7 m ρ c]
  rfl

theorem W3_v38 (c : Dev nD) : W3 m ρ c (Proc.devRef .tc main_v38) = Cert.ReferenceIdeal.Read.val_main_v43 (F := Ideal) (m ((c : Thread nD τ).loc main_arg7)) := by
  show StableHlo.after hostOps1 (W2 m ρ c) (Proc.devRef .tc main_v38) = _
  after_results_simp
  rw [W2_arg7 m ρ c]
  rfl
theorem W3_v39 (c : Dev nD) : W3 m ρ c (Proc.devRef .tc main_v39) = Cert.ReferenceIdeal.Read.val_main_v48 (F := Ideal) (m ((c : Thread nD τ).loc main_arg8)) := by
  show StableHlo.after hostOps1 (W2 m ρ c) (Proc.devRef .tc main_v39) = _
  after_results_simp
  rw [W2_arg8 m ρ c]
  rfl
theorem W3_v40 (c : Dev nD) : W3 m ρ c (Proc.devRef .tc main_v40) = shapeCast S1x128 (m ((c : Thread nD τ).loc main_arg9)) shapeCasts_S128_S1x128 := by
  show StableHlo.after hostOps1 (W2 m ρ c) (Proc.devRef .tc main_v40) = _
  after_results_simp
  rw [W2_arg9 m ρ c]
  rfl

theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c
theorem W3_v7 (c : Dev nD) : W3 m ρ c (Proc.devRef .tc main_v7) = Cert.ReferenceIdeal.Read.val_main_v7 (F := Ideal) (m ((c : Thread nD τ).loc main_arg3)) := by
  show StableHlo.after hostOps1 (W2 m ρ c) (Proc.devRef .tc main_v7) = _
  after_results_simp
  exact W2_v7 m ρ c

/-! ## After the second launch -/

/-- The second launch's result: the reference's second layer. -/
theorem W4_v41 (c : Dev nD) : W4 m ρ c (Proc.devRef .tc main_v41) = Cert.ReferenceIdeal.Read.val_main_v51 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ((Region1.final (V3 m ρ) c).trans ?_)
  have e0 : V3 m ρ c main_v24 = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := W3_v24 m ρ c
  have e1 : V3 m ρ c main_v37 = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := W3_v37 m ρ c
  have e2 : V3 m ρ c main_v38 = Cert.ReferenceIdeal.Read.val_main_v43 (F := Ideal) (m ((c : Thread nD τ).loc main_arg7)) := W3_v38 m ρ c
  have e3 : V3 m ρ c main_v39 = Cert.ReferenceIdeal.Read.val_main_v48 (F := Ideal) (m ((c : Thread nD τ).loc main_arg8)) := W3_v39 m ρ c
  have e4 : V3 m ρ c main_v40 = shapeCast S1x128 (m ((c : Thread nD τ).loc main_arg9)) shapeCasts_S128_S1x128 := W3_v40 m ρ c
  rw [e0, e1, e2, e3, e4]
  exact Cert.Bridge.layer1 _ _ _ _ _ _ _ _ _ _ (fun q => row128 _ _ q)

theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_v7 (c : Dev nD) : W4 m ρ c (Proc.devRef .tc main_v7) = Cert.ReferenceIdeal.Read.val_main_v7 (F := Ideal) (m ((c : Thread nD τ).loc main_arg3)) :=
  (W4_of_ne m ρ c main_v7 (by decide)).trans (W3_v7 m ρ c)

end Cert.KernelIdeal.Host

end
-- ==== Proof.Region2.lean ====
/-
  The third launch: what its result array holds when it returns, as one function of the five arrays it reads.

  The grid has 20 points; point t reads rows 5000·t … 5000·t + 4999 of the features and of the aggregated
  neighbour features, the whole of both weight matrices and of the bias row, and writes rows 5000·t … of the
  result. Entry (r, c) of the result therefore depends on row r of the two feature arrays and column c of the
  weights and the bias only — the body's arithmetic at an entry (Body.lean) read through the blocks — and the 20
  row blocks cover the array.
-/
import proofs.«133275_j20383914787326_1_alg».proof.Proof.Gen.KernelIdeal.Frame
import proofs.«133275_j20383914787326_1_alg».proof.Proof.Body
import proofs.«133275_j20383914787326_1_alg».proof.Proof.LayerFn
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, block column 0; the
    weights and the bias are always their one block. -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The block's arithmetic at entry (p, q) is the layer's function at the array entry i the block entry sits at, as
    soon as the blocks' row p and column q are the arrays' row and column of i. -/
theorem blk_eq (x0 x1 : Vec Ideal S5000x128 .f32) (x2 x3 : Vec Ideal S128x40 .f32) (x4 : Vec Ideal S1x40 .f32)
    (h hn : S100000x128.Idx → Elt Ideal .f32) (ws wn : S128x40.Idx → Elt Ideal .f32) (b : S1x40.Idx → Elt Ideal .f32)
    (p : Fin 5000) (q : Fin 40) (i : S100000x40.Idx)
    (e0 : ∀ k : Fin 128, x0 (ix2 p k) = h (ix2 (i 0) k)) (e1 : ∀ k : Fin 128, x1 (ix2 p k) = hn (ix2 (i 0) k))
    (e2 : ∀ k : Fin 128, x2 (ix2 k q) = ws (ix2 k (i 1))) (e3 : ∀ k : Fin 128, x3 (ix2 k q) = wn (ix2 k (i 1)))
    (e4 : x4 (ix2 (0 : Fin 1) q) = b (ix2 (0 : Fin 1) (i 1))) :
    k2_pay1 (F := Ideal) x0 x1 x2 x3 x4 (ix2 p q) = out40 h hn ws wn b i := by
  rw [Body.pay2_apply]
  unfold out40
  simp only [e0, e1, e2, e3, e4]

/-- WHAT POINT t WRITES BACK is block t of the layer's function of the arrays as the launch finds them. -/
theorem flushed_eq (c : Dev nD) (t : Fin cfg2.N) :
    (dat2 V c).flushed 5 t = ((cfg2.win 5).blk t).view.read (Elt Ideal)
      (out40 (V c main_v41) (V c main_v54) (V c main_v55) (V c main_v56) (V c main_v57)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  obtain ⟨o0, o1, a0, a1, b0, b1, c0, c1, d0, d1, f0, f1⟩ := idx_facts t
  funext j
  have hp : (j 0).val < 5000 := Nat.lt_of_lt_of_le (j 0).isLt ((cfg2.win 5).xsize_le (grid2.coords t) 0)
  have hq : (j 1).val < 40 := Nat.lt_of_lt_of_le (j 1).isLt ((cfg2.win 5).xsize_le (grid2.coords t) 1)
  have hx : (cfg2.win 5).xinj (grid2.coords t) j = ix2 (⟨(j 0).val, hp⟩ : Fin 5000) (⟨(j 1).val, hq⟩ : Fin 40) :=
    funext fun a => by
      match a with
      | ⟨0, _⟩ => rfl
      | ⟨1, _⟩ => rfl
  refine (congrArg (k2_pay1 (F := Ideal) (iblk2 V c 0 t) (iblk2 V c 1 t) (iblk2 V c 2 t) (iblk2 V c 3 t) (iblk2 V c 4 t)) hx).trans ?_
  refine blk_eq (iblk2 V c 0 t) (iblk2 V c 1 t) (iblk2 V c 2 t) (iblk2 V c 3 t) (iblk2 V c 4 t)
    (V c main_v41) (V c main_v54) (V c main_v55) (V c main_v56) (V c main_v57) ⟨(j 0).val, hp⟩ ⟨(j 1).val, hq⟩ (((cfg2.win 5).blk t).view.emb j)
    (fun k => ?_) (fun k => ?_) (fun k => ?_) (fun k => ?_) ?_
  · show V c main_v41 (((cfg2.win 0).blk t).view.emb (ix2 (⟨(j 0).val, hp⟩ : Fin 5000) k)) = _
    refine congrArg (V c main_v41) (funext fun a => Fin.ext ?_)
    match a with
    | ⟨0, _⟩ => show win2_0.index t (0 : Fin 2) * 5000 + 1 * (j 0).val = win2_5.index t (0 : Fin 2) * 5000 + 1 * (j 0).val; rw [a0, o0]
    | ⟨1, _⟩ => show win2_0.index t (1 : Fin 2) * 128 + 1 * k.val = k.val; rw [a1]; omega
  · show V c main_v54 (((cfg2.win 1).blk t).view.emb (ix2 (⟨(j 0).val, hp⟩ : Fin 5000) k)) = _
    refine congrArg (V c main_v54) (funext fun a => Fin.ext ?_)
    match a with
    | ⟨0, _⟩ => show win2_1.index t (0 : Fin 2) * 5000 + 1 * (j 0).val = win2_5.index t (0 : Fin 2) * 5000 + 1 * (j 0).val; rw [b0, o0]
    | ⟨1, _⟩ => show win2_1.index t (1 : Fin 2) * 128 + 1 * k.val = k.val; rw [b1]; omega
  · show V c main_v55 (((cfg2.win 2).blk t).view.emb (ix2 k (⟨(j 1).val, hq⟩ : Fin 40))) = _
    refine congrArg (V c main_v55) (funext fun a => Fin.ext ?_)
    match a with
    | ⟨0, _⟩ => show win2_2.index t (0 : Fin 2) * 128 + 1 * k.val = k.val; rw [c0]; omega
    | ⟨1, _⟩ => show win2_2.index t (1 : Fin 2) * 40 + 1 * (j 1).val = win2_5.index t (1 : Fin 2) * 40 + 1 * (j 1).val; rw [c1, o1]
  · show V c main_v56 (((cfg2.win 3).blk t).view.emb (ix2 k (⟨(j 1).val, hq⟩ : Fin 40))) = _
    refine congrArg (V c main_v56) (funext fun a => Fin.ext ?_)
    match a with
    | ⟨0, _⟩ => show win2_3.index t (0 : Fin 2) * 128 + 1 * k.val = k.val; rw [d0]; omega
    | ⟨1, _⟩ => show win2_3.index t (1 : Fin 2) * 40 + 1 * (j 1).val = win2_5.index t (1 : Fin 2) * 40 + 1 * (j 1).val; rw [d1, o1]
  · show V c main_v57 (((cfg2.win 4).blk t).view.emb (ix2 (0 : Fin 1) (⟨(j 1).val, hq⟩ : Fin 40))) = _
    refine congrArg (V c main_v57) (funext fun a => Fin.ext ?_)
    match a with
    | ⟨0, _⟩ => show win2_4.index t (0 : Fin 2) * 1 + 1 * 0 = 0; rw [f0]
    | ⟨1, _⟩ => show win2_4.index t (1 : Fin 2) * 40 + 1 * (j 1).val = win2_5.index t (1 : Fin 2) * 40 + 1 * (j 1).val; rw [f1, o1]

/-- An entry of the result array is in point t's block iff each coordinate is in the block's range on its axis. -/
theorem mem_blk (t : Fin cfg2.N) (i : S100000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v58).slice (win2_5.rect t)).set ↔ _
  rw [View.set_slice_whole, Rect.mem_set_unit]
  exact Iff.rfl

/-- Every entry of the result is written back: row r by point r / 5000. -/
theorem cover (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_5 _, ?_⟩
  rw [mem_blk]
  obtain ⟨o0, o1, -⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [o0]; show (i 0).val / 5000 * 5000 ≤ (i 0).val ∧ (i 0).val < (i 0).val / 5000 * 5000 + 5000; omega
  | ⟨1, _⟩ =>
    show win2_5.index _ (1 : Fin 2) * 40 ≤ (i 1).val ∧ (i 1).val < win2_5.index _ (1 : Fin 2) * 40 + 40
    rw [o1]; omega

/-- THE RESULT ARRAY when the launch returns: the layer's function of the arrays it was entered with. -/
theorem final (c : Dev nD) : (dat2 V c).arrAt 5 cfg2.N
    = out40 (V c main_v41) (V c main_v54) (V c main_v55) (V c main_v56) (V c main_v57) :=
  (dat2 V c).arrAt_eq_of_cover 5 _ (fun t _ => flushed_eq V c t) cover

end Cert.KernelIdeal.Region2

end
-- ==== Proof.Stretch2.lean ====
/-
  The third stretch of host operations and the last launch, read back: the result of the idealized kernel.

  The aggregation once more, now on the second layer's result, the last layer's weights transposed (128 rows of 40)
  and its bias as one row of 40; the last launch then leaves the reference's last stage — the reference's result — in
  the result buffer.
-/
import proofs.«133275_j20383914787326_1_alg».proof.Proof.Stretch1
import proofs.«133275_j20383914787326_1_alg».proof.Proof.Region2
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable (m : (ℓ : Loc nD τ sig) → Buf (Elt Ideal) ℓ) (ρ : Dev nD → PrngReg)

/-! ## After the third stretch -/

theorem W5_v41 (c : Dev nD) : W5 m ρ c (Proc.devRef .tc main_v41) = Cert.ReferenceIdeal.Read.val_main_v51 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v41) = _
  after_results_simp
  exact W4_v41 m ρ c

/-- The aggregated neighbour features of the second layer. -/
theorem W5_v54 (c : Dev nD) : W5 m ρ c (Proc.devRef .tc main_v54) = Cert.ReferenceIdeal.Read.val_main_v64 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v54) = _
  after_results_simp
  rw [W4_arg3 m ρ c, W4_arg2 m ρ c, W4_v41 m ρ c, W4_v7 m ρ c]
  rfl

theorem W5_v55 (c : Dev nD) : W5 m ρ c (Proc.devRef .tc main_v55) = Cert.ReferenceIdeal.Read.val_main_v65 (F := Ideal) (m ((c : Thread nD τ).loc main_arg10)) := by
  show StableHlo.after hostOps2 (W4 m ρ c) (Proc.devRef .tc main_v55) = _
  after_results_simp
  rw [W4_arg10 m ρ c]
  rfl
theorem W5_v56 (c : Dev nD) : W5 m ρ c (Proc.devRef .tc main_v56) = Cert.ReferenceIdeal.Read.val_main_v70 (F := Ideal) (m ((c : Thread nD τ).loc main_arg11)) := by
  show StableHlo.after hostOps2 (W4 m ρ c) (Proc.devRef .tc main_v56) = _
  after_results_simp
  rw [W4_arg11 m ρ c]
  rfl
theorem W5_v57 (c : Dev nD) : W5 m ρ c (Proc.devRef .tc main_v57) = shapeCast S1x40 (m ((c : Thread nD τ).loc main_arg12)) shapeCasts_S40_S1x40 := by
  show StableHlo.after hostOps2 (W4 m ρ c) (Proc.devRef .tc main_v57) = _
  after_results_simp
  rw [W4_arg12 m ρ c]
  rfl

/-! ## After the last launch -/

/-- THE RESULT of the idealized kernel: the reference's last stage of the same arguments. -/
theorem W6_v58 (c : Dev nD) : W6 m ρ c (Proc.devRef .tc main_v58) = Cert.ReferenceIdeal.Read.val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((Region2.final (V5 m ρ) c).trans ?_)
  have e0 : V5 m ρ c main_v41 = Cert.ReferenceIdeal.Read.val_main_v51 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := W5_v41 m ρ c
  have e1 : V5 m ρ c main_v54 = Cert.ReferenceIdeal.Read.val_main_v64 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := W5_v54 m ρ c
  have e2 : V5 m ρ c main_v55 = Cert.ReferenceIdeal.Read.val_main_v65 (F := Ideal) (m ((c : Thread nD τ).loc main_arg10)) := W5_v55 m ρ c
  have e3 : V5 m ρ c main_v56 = Cert.ReferenceIdeal.Read.val_main_v70 (F := Ideal) (m ((c : Thread nD τ).loc main_arg11)) := W5_v56 m ρ c
  have e4 : V5 m ρ c main_v57 = shapeCast S1x40 (m ((c : Thread nD τ).loc main_arg12)) shapeCasts_S40_S1x40 := W5_v57 m ρ c
  rw [e0, e1, e2, e3, e4]
  exact Cert.Bridge.layer2 _ _ _ _ _ _ _ _ _ _ _ _ _ (fun q => row40 _ _ q)

end Cert.KernelIdeal.Host

end
-- ==== Proof.lean ====
/-
  Three layers of mean-aggregation graph convolution, a tiled kernel against its array-at-a-time reference.

  Both programs compute, for node features x (100000 × 128), an edge list (src, dst) of 1600000 edges and three
  layers of weights (W_self, W_neigh, b), three times over
      h ← relu (h · W_selfᵀ + b + mean_agg(h) · W_neighᵀ),
  where mean_agg gathers h along the edges' sources, sums the gathered rows into the edges' destinations and divides
  each row by max(in-degree, 1). The gather, the scattered sum, the degrees and the transposes are the same host
  operations in both programs; the kernel differs only in computing each layer's
  relu ((h·Wsᵀ + hn·Wnᵀ) + b) block by block of 5000 rows on the matrix unit, with operands narrowed to bf16 (the
  identity on extended reals) and the bias added last, where the reference adds it between the two products. On the
  extended reals addition is commutative and associative, so the two agree entry by entry for ANY inputs: the
  precondition (finite inputs) is not used.

  The pieces: Body.lean reads a block's arithmetic at an entry; Region0/1/2.lean turn the twenty row blocks of each
  launch into one function of whole arrays (LayerFn.lean); LayerEq.lean shows that function of the reference's stages is
  the reference's next stage; Stretch0/1/2.lean walk @main's buffers from the arguments to the result, launch by
  launch; NamedRun.lean is the kernel's run with its result named. The reference's run and its stages are the
  generated modules. The three frames are the generated ones (the reference's is its run with the result dropped), and
  there is nothing to preserve: the idealization rewrote no operation.
-/
import proofs.«133275_j20383914787326_1_alg».proof.Defs
import proofs.«133275_j20383914787326_1_alg».proof.Proof.Gen.Kernel
import proofs.«133275_j20383914787326_1_alg».proof.Proof.Gen.Kernel.Skeleton
import proofs.«133275_j20383914787326_1_alg».proof.Proof.Gen.Kernel.Launch
import proofs.«133275_j20383914787326_1_alg».proof.Proof.Gen.Kernel.Points
import proofs.«133275_j20383914787326_1_alg».proof.Proof.Gen.Kernel.Frame
import proofs.«133275_j20383914787326_1_alg».proof.Proof.Gen.KernelIdeal
import proofs.«133275_j20383914787326_1_alg».proof.Proof.Gen.KernelIdeal.Skeleton
import proofs.«133275_j20383914787326_1_alg».proof.Proof.Gen.KernelIdeal.Launch
import proofs.«133275_j20383914787326_1_alg».proof.Proof.Gen.KernelIdeal.Points
import proofs.«133275_j20383914787326_1_alg».proof.Proof.Gen.KernelIdeal.Frame
import proofs.«133275_j20383914787326_1_alg».proof.Proof.Gen.ReferenceIdeal
import proofs.«133275_j20383914787326_1_alg».proof.Proof.Gen.ReferenceIdeal.Read
import proofs.«133275_j20383914787326_1_alg».proof.Proof.Gen.Pre_finite_inputs
import proofs.«133275_j20383914787326_1_alg».proof.Proof.NamedRun
import proofs.«133275_j20383914787326_1_alg».proof.Proof.Stretch2
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result: the reference's last stage of the arguments — the kernel's
    result buffer by the walk through its three launches, the reference's by its generated run. -/
theorem algebraic : Cert.algebraic_KernelIdeal_ReferenceIdeal := by
  intro m ρ m' ρ' _ hagree
  refine ⟨fun c => Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Host.W6_v58 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v73_eq, h0, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
